-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S6250x4096 : Shape := ⟨2, ![6250, 4096]⟩
abbrev S6250 : Shape := ⟨1, ![6250]⟩
abbrev S10x6250 : Shape := ⟨2, ![10, 6250]⟩
abbrev S10 : Shape := ⟨1, ![10]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S6250x4096 : S_.BroadcastsInDim S6250x4096 (![] : Fin 0 → Fin S6250x4096.rank)
  reducesTo_S6250x4096_S_d0_1 : S6250x4096.ReducesTo [0, 1] S_
  bcast_S_S6250 : S_.BroadcastsInDim S6250 (![] : Fin 0 → Fin S6250.rank)
  reducesTo_S6250_S_d0 : S6250.ReducesTo [0] S_
  bcast_S_S10x6250 : S_.BroadcastsInDim S10x6250 (![] : Fin 0 → Fin S10x6250.rank)
  reducesTo_S10x6250_S_d0_1 : S10x6250.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S6250x4096 .f32) (main_v33 : IVec S_ 1) : IVec S_ 1 :=
  let main_v34 : FVec F S6250x4096 .f32 := Host.absf main_arg7
  let main_cst_12 : FVec F S_ .f32 := constant S_ .f32 0x7F800000#32
  let main_v35 : FVec F S6250x4096 .f32 := broadcastInDim S6250x4096 ![] bcast_S_S6250x4096 main_cst_12
  let main_v36 : IVec S6250x4096 1 := cmpf .olt main_v34 main_v35
  let main_c_13 : IVec S_ 1 := constantI S_ 1 1#1
  let main_v37 : IVec S_ 1 := (fun x v => Host.reduce IntOp.andi x v reducesTo_S6250x4096_S_d0_1 h_S_) main_v36 main_c_13
  let main_v38 : IVec S_ 1 := andi main_v33 main_v37
  main_v38

def fn_part1 {F : FTy → Type} [FloatOps F] (main_arg4 : FVec F S6250 .f32) (main_arg5 : FVec F S10x6250 .f32) (main_arg6 : FVec F S10 .f32) (main_arg7 : FVec F S6250x4096 .f32) (main_v13 : IVec S_ 1) (main_v16 : IVec S6250x4096 1) : IVec S_ 1 :=
  let main_c_5 : IVec S_ 1 := constantI S_ 1 1#1
  let main_v17 : IVec S_ 1 := (fun x v => Host.reduce IntOp.andi x v reducesTo_S6250x4096_S_d0_1 h_S_) main_v16 main_c_5
  let main_v18 : IVec S_ 1 := andi main_v13 main_v17
  let main_v19 : FVec F S6250 .f32 := Host.absf main_arg4
  let main_cst_6 : FVec F S_ .f32 := constant S_ .f32 0x7F800000#32
  let main_v20 : FVec F S6250 .f32 := broadcastInDim S6250 ![] bcast_S_S6250 main_cst_6
  let main_v21 : IVec S6250 1 := cmpf .olt main_v19 main_v20
  let main_c_7 : IVec S_ 1 := constantI S_ 1 1#1
  let main_v22 : IVec S_ 1 := (fun x v => Host.reduce IntOp.andi x v reducesTo_S6250_S_d0 h_S_) main_v21 main_c_7
  let main_v23 : IVec S_ 1 := andi main_v18 main_v22
  let main_v24 : FVec F S10x6250 .f32 := Host.absf main_arg5
  let main_cst_8 : FVec F S_ .f32 := constant S_ .f32 0x7F800000#32
  let main_v25 : FVec F S10x6250 .f32 := broadcastInDim S10x6250 ![] bcast_S_S10x6250 main_cst_8
  let main_v26 : IVec S10x6250 1 := cmpf .olt main_v24 main_v25
  let main_c_9 : IVec S_ 1 := constantI S_ 1 1#1
  let main_v27 : IVec S_ 1 := (fun x v => Host.reduce IntOp.andi x v reducesTo_S10x6250_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_v33

def fn {F : FTy → Type} [FloatOps F] (main_arg0 : FVec F S256x4096 .f32) (main_arg1 : FVec F S6250x4096 .f32) (main_arg2 : FVec F S6250x4096 .f32) (main_arg3 : FVec F S6250x4096 .f32) (main_arg4 : FVec F S6250 .f32) (main_arg5 : FVec F S10x6250 .f32) (main_arg6 : FVec F S10 .f32) (main_arg7 : FVec F S6250x4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S6250x4096 .f32 := Host.absf main_arg1
  let main_cst_0 : FVec F S_ .f32 := constant S_ .f32 0x7F800000#32
  let main_v5 : FVec F S6250x4096 .f32 := broadcastInDim S6250x4096 ![] bcast_S_S6250x4096 main_cst_0
  let main_v6 : IVec S6250x4096 1 := cmpf .olt main_v4 main_v5
  let main_c_1 : IVec S_ 1 := constantI S_ 1 1#1
  let main_v7 : IVec S_ 1 := (fun x v => Host.reduce IntOp.andi x v reducesTo_S6250x4096_S_d0_1 h_S_) main_v6 main_c_1
  let main_v8 : IVec S_ 1 := andi main_v3 main_v7
  let main_v9 : FVec F S6250x4096 .f32 := Host.absf main_arg2
  let main_cst_2 : FVec F S_ .f32 := constant S_ .f32 0x7F800000#32
  let main_v10 : FVec F S6250x4096 .f32 := broadcastInDim S6250x4096 ![] bcast_S_S6250x4096 main_cst_2
  let main_v11 : IVec S6250x4096 1 := cmpf .olt main_v9 main_v10
  let main_c_3 : IVec S_ 1 := constantI S_ 1 1#1
  let main_v12 : IVec S_ 1 := (fun x v => Host.reduce IntOp.andi x v reducesTo_S6250x4096_S_d0_1 h_S_) main_v11 main_c_3
  let main_v13 : IVec S_ 1 := andi main_v8 main_v12
  let main_v14 : FVec F S6250x4096 .f32 := Host.absf main_arg3
  let main_cst_4 : FVec F S_ .f32 := constant S_ .f32 0x7F800000#32
  let main_v15 : FVec F S6250x4096 .f32 := broadcastInDim S6250x4096 ![] bcast_S_S6250x4096 main_cst_4
  let main_v16 : IVec S6250x4096 1 := cmpf .olt main_v14 main_v15
  fn_part1 (F := F) main_arg4 main_arg5 main_arg6 main_arg7 main_v13 main_v16
-- ==== Kernel.lean ====
abbrev S256x4096 : Shape := ⟨2, ![256, 4096]⟩
abbrev S6250x4096 : Shape := ⟨2, ![6250, 4096]⟩
abbrev S6250 : Shape := ⟨1, ![6250]⟩
abbrev S10x6250 : Shape := ⟨2, ![10, 6250]⟩
abbrev S10 : Shape := ⟨1, ![10]⟩
abbrev S_ : Shape := ⟨0, ![]⟩
abbrev S6656x4096 : Shape := ⟨2, ![6656, 4096]⟩
abbrev S6656 : Shape := ⟨1, ![6656]⟩
abbrev S1x6656 : Shape := ⟨2, ![1, 6656]⟩
abbrev S6250x10 : Shape := ⟨2, ![6250, 10]⟩
abbrev S6656x10 : Shape := ⟨2, ![6656, 10]⟩
abbrev S2x256x10 : Shape := ⟨3, ![2, 256, 10]⟩
abbrev S1x256 : Shape := ⟨2, ![1, 256]⟩
abbrev S256x10 : Shape := ⟨2, ![256, 10]⟩
abbrev S1x256x10 : Shape := ⟨3, ![1, 256, 10]⟩
abbrev S4096x256 : Shape := ⟨2, ![4096, 256]⟩
abbrev S256x256 : Shape := ⟨2, ![256, 256]⟩
abbrev S1x10 : Shape := ⟨2, ![1, 10]⟩

abbrev nBuf : Space → Nat
  | .hbm => 41
  | .vmem => 13
  | .smem => 0
  | _ => 0

abbrev bufTy : (tb : Table) → Fin (tcTables nBuf tb) → BufTy
  | .hbm, ⟨0, _⟩ => ⟨S256x4096, .f32⟩
  | .hbm, ⟨1, _⟩ => ⟨S6250x4096, .f32⟩
  | .hbm, ⟨2, _⟩ => ⟨S6250x4096, .f32⟩
  | .hbm, ⟨3, _⟩ => ⟨S6250x4096, .f32⟩
  | .hbm, ⟨4, _⟩ => ⟨S6250, .f32⟩
  | .hbm, ⟨5, _⟩ => ⟨S10x6250, .f32⟩
  | .hbm, ⟨6, _⟩ => ⟨S10, .f32⟩
  | .hbm, ⟨7, _⟩ => ⟨S6250x4096, .f32⟩
  | .hbm, ⟨8, _⟩ => ⟨S256x4096, .bf16⟩
  | .hbm, ⟨9, _⟩ => ⟨S6250x4096, .f32⟩
  | .hbm, ⟨10, _⟩ => ⟨S_, .i32⟩
  | .hbm, ⟨11, _⟩ => ⟨S_, .f32⟩
  | .hbm, ⟨12, _⟩ => ⟨S6656x4096, .f32⟩
  | .hbm, ⟨13, _⟩ => ⟨S6656x4096, .bf16⟩
  | .hbm, ⟨14, _⟩ => ⟨S6250x4096, .f32⟩
  | .hbm, ⟨15, _⟩ => ⟨S_, .i32⟩
  | .hbm, ⟨16, _⟩ => ⟨S_, .f32⟩
  | .hbm, ⟨17, _⟩ => ⟨S6656x4096, .f32⟩
  | .hbm, ⟨18, _⟩ => ⟨S6656x4096, .bf16⟩
  | .hbm, ⟨19, _⟩ => ⟨S6250x4096, .f32⟩
  | .hbm, ⟨20, _⟩ => ⟨S_, .i32⟩
  | .hbm, ⟨21, _⟩ => ⟨S_, .f32⟩
  | .hbm, ⟨22, _⟩ => ⟨S6656x4096, .f32⟩
  | .hbm, ⟨23, _⟩ => ⟨S6656x4096, .bf16⟩
  | .hbm, ⟨24, _⟩ => ⟨S_, .i32⟩
  | .hbm, ⟨25, _⟩ => ⟨S_, .f32⟩
  | .hbm, ⟨26, _⟩ => ⟨S6656, .f32⟩
  | .hbm, ⟨27, _⟩ => ⟨S1x6656, .f32⟩
  | .hbm, ⟨28, _⟩ => ⟨S6250x10, .f32⟩
  | .hbm, ⟨29, _⟩ => ⟨S_, .i32⟩
  | .hbm, ⟨30, _⟩ => ⟨S_, .f32⟩
  | .hbm, ⟨31, _⟩ => ⟨S6656x10, .f32⟩
  | .hbm, ⟨32, _⟩ => ⟨S2x256x10, .f32⟩
  | .hbm, ⟨33, _⟩ => ⟨S1x256x10, .f32⟩
  | .hbm, ⟨34, _⟩ => ⟨S256x10, .f32⟩
  | .hbm, ⟨35, _⟩ => ⟨S1x256x10, .f32⟩
  | .hbm, ⟨36, _⟩ => ⟨S256x10, .f32⟩
  | .hbm, ⟨37, _⟩ => ⟨S256x10, .f32⟩
  | .hbm, ⟨38, _⟩ => ⟨S1x10, .f32⟩
  | .hbm, ⟨39, _⟩ => ⟨S256x10, .f32⟩
  | .hbm, ⟨40, _⟩ => ⟨S256x10, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S1x256, .f32⟩
  | .local _ .vmem, ⟨8, _⟩ => ⟨S1x256, .f32⟩
  | .local _ .vmem, ⟨9, _⟩ => ⟨S256x10, .f32⟩
  | .local _ .vmem, ⟨10, _⟩ => ⟨S256x10, .f32⟩
  | .local _ .vmem, ⟨11, _⟩ => ⟨S1x256x10, .f32⟩
  | .local _ .vmem, ⟨12, _⟩ => ⟨S1x256x10, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_call3_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_call4_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.muli arg0 c13_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  pads_S6250x4096_S6656x4096_04060_000 : S6250x4096.Pads (![0, 0] : Fin 2 → Nat) ![406, 0] ![0, 0] S6656x4096
  h_S_ : 0 < S_.numel
  pads_S6250_S6656_04060 : S6250.Pads (![0] : Fin 1 → Nat) ![406] ![0] S6656
  shapeCasts_S6656_S1x6656 : S6656.ShapeCasts S1x6656
  transposes_S10x6250_S6250x10_1_0 : S10x6250.Transposes [1, 0] S6250x10
  pads_S6250x10_S6656x10_04060_000 : S6250x10.Pads (![0, 0] : Fin 2 → Nat) ![406, 0] ![0, 0] S6656x10
  inb_S1x256x10_S1x256x10_0_0_0 : ∀ a, (![0, 0, 0] : Fin 3 → Nat) a + S1x256x10.size a ≤ S1x256x10.size a
  h_S1x256x10 : 0 < S1x256x10.numel
  shapeCasts_S1x256x10_S256x10 : S1x256x10.ShapeCasts S256x10
  shapeCasts_S256x10_S1x256x10 : S256x10.ShapeCasts S1x256x10
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x10_S256x10_0_0 : ∀ a, (![0, 0] : Fin 2 → Nat) a + S256x10.size a ≤ S256x10.size a
  h_S256x10 : 0 < S256x10.numel
  shapeCasts_S256x10_S256x10 : S256x10.ShapeCasts S256x10
  slices_S2x256x10_S1x256x10_0_0_0 : S2x256x10.Slices ![0, 0, 0] S1x256x10
  slices_S2x256x10_S1x256x10_1_0_0 : S2x256x10.Slices ![1, 0, 0] S1x256x10
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S256x4096_S4096x256_S256x256_1_0_0_1_n_n_wf : DotDims.WF S256x4096 S4096x256 S256x256 [1] [0] [0] [1] [] []
  dot_S256x256_S256x10_S256x10_1_0_0_1_n_n_wf : DotDims.WF S256x256 S256x10 S256x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S6656x4096.size a
  hwx0_1 : ∀ i : grid0.Coords, EltTy.bits .bf16 = 32 ∨ (Rect.block (s := S6656x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S6656x4096.size a
  hwx0_2 : ∀ i : grid0.Coords, EltTy.bits .bf16 = 32 ∨ (Rect.block (s := S6656x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S6656x4096.size a
  hwx0_3 : ∀ i : grid0.Coords, EltTy.bits .bf16 = 32 ∨ (Rect.block (s := S6656x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x6656.size a
  hwx0_4 : ∀ i : grid0.Coords, EltTy.bits .f32 = 32 ∨ (Rect.block (s := S1x6656) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x10.size a ≤ S6656x10.size a
  hwx0_5 : ∀ i : grid0.Coords, EltTy.bits .f32 = 32 ∨ (Rect.block (s := S6656x10) S256x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x10.size a ≤ S2x256x10.size a
  hwx0_6 : ∀ i : grid0.Coords, EltTy.bits .f32 = 32 ∨ (Rect.block (s := S2x256x10) S1x256x10.size (cc0_transform_6 i) (hinb0_6 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x10_S256x10_1_0_0_1_n_n : DotDims S256x256 S256x10 S256x10 where
  lhsContracting := [1]
  rhsContracting := [0]
  lhsNonContracting := [0]
  rhsNonContracting := [1]
  lhsBatch := []
  rhsBatch := []
  wf := dot_S256x256_S256x10_S256x10_1_0_0_1_n_n_wf

abbrev win0_0 : Pipeline.Window sig grid0 :=
  Pipeline.Window.ofSpec (Memref.whole main_v0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x10.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x256x10.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x4096 : Shape := ⟨2, ![256, 4096]⟩
abbrev S6250x4096 : Shape := ⟨2, ![6250, 4096]⟩
abbrev S6250 : Shape := ⟨1, ![6250]⟩
abbrev S10x6250 : Shape := ⟨2, ![10, 6250]⟩
abbrev S10 : Shape := ⟨1, ![10]⟩
abbrev S4096x6250 : Shape := ⟨2, ![4096, 6250]⟩
abbrev S256x6250 : Shape := ⟨2, ![256, 6250]⟩
abbrev S_ : Shape := ⟨0, ![]⟩
abbrev S1x6250 : Shape := ⟨2, ![1, 6250]⟩
abbrev S6250x10 : Shape := ⟨2, ![6250, 10]⟩
abbrev S256x10 : Shape := ⟨2, ![256, 10]⟩
abbrev S1x10 : Shape := ⟨2, ![1, 10]⟩

abbrev nBuf : Space → Nat
  | .hbm => 34
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S6250x4096, .f32⟩
  | .hbm, ⟨2, _⟩ => ⟨S6250x4096, .f32⟩
  | .hbm, ⟨3, _⟩ => ⟨S6250x4096, .f32⟩
  | .hbm, ⟨4, _⟩ => ⟨S6250, .f32⟩
  | .hbm, ⟨5, _⟩ => ⟨S10x6250, .f32⟩
  | .hbm, ⟨6, _⟩ => ⟨S10, .f32⟩
  | .hbm, ⟨7, _⟩ => ⟨S6250x4096, .f32⟩
  | .hbm, ⟨8, _⟩ => ⟨S6250x4096, .f32⟩
  | .hbm, ⟨9, _⟩ => ⟨S4096x6250, .f32⟩
  | .hbm, ⟨10, _⟩ => ⟨S256x6250, .f32⟩
  | .hbm, ⟨11, _⟩ => ⟨S6250x4096, .f32⟩
  | .hbm, ⟨12, _⟩ => ⟨S4096x6250, .f32⟩
  | .hbm, ⟨13, _⟩ => ⟨S256x6250, .f32⟩
  | .hbm, ⟨14, _⟩ => ⟨S_, .f32⟩
  | .hbm, ⟨15, _⟩ => ⟨S256x6250, .f32⟩
  | .hbm, ⟨16, _⟩ => ⟨S256x6250, .f32⟩
  | .hbm, ⟨17, _⟩ => ⟨S256x6250, .f32⟩
  | .hbm, ⟨18, _⟩ => ⟨S1x6250, .f32⟩
  | .hbm, ⟨19, _⟩ => ⟨S256x6250, .f32⟩
  | .hbm, ⟨20, _⟩ => ⟨S256x6250, .f32⟩
  | .hbm, ⟨21, _⟩ => ⟨S6250x4096, .f32⟩
  | .hbm, ⟨22, _⟩ => ⟨S4096x6250, .f32⟩
  | .hbm, ⟨23, _⟩ => ⟨S256x6250, .f32⟩
  | .hbm, ⟨24, _⟩ => ⟨S_, .f32⟩
  | .hbm, ⟨25, _⟩ => ⟨S256x6250, .f32⟩
  | .hbm, ⟨26, _⟩ => ⟨S256x6250, .f32⟩
  | .hbm, ⟨27, _⟩ => ⟨S256x6250, .f32⟩
  | .hbm, ⟨28, _⟩ => ⟨S256x6250, .f32⟩
  | .hbm, ⟨29, _⟩ => ⟨S6250x10, .f32⟩
  | .hbm, ⟨30, _⟩ => ⟨S256x10, .f32⟩
  | .hbm, ⟨31, _⟩ => ⟨S1x10, .f32⟩
  | .hbm, ⟨32, _⟩ => ⟨S256x10, .f32⟩
  | .hbm, ⟨33, _⟩ => ⟨S256x10, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  transposes_S6250x4096_S4096x6250_1_0 : S6250x4096.Transposes [1, 0] S4096x6250
  bcast_S_S256x6250 : S_.BroadcastsInDim S256x6250 (![] : Fin 0 → Fin S256x6250.rank)
  bcast_S6250_S1x6250_1 : S6250.BroadcastsInDim S1x6250 (![1] : Fin 1 → Fin S1x6250.rank)
  bcast_S1x6250_S256x6250_0_1 : S1x6250.BroadcastsInDim S256x6250 (![0, 1] : Fin 2 → Fin S256x6250.rank)
  transposes_S10x6250_S6250x10_1_0 : S10x6250.Transposes [1, 0] S6250x10
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  dot_S256x4096_S4096x6250_S256x6250_1_0_0_1_n_n_wf : DotDims.WF S256x4096 S4096x6250 S256x6250 [1] [0] [0] [1] [] []
  dot_S256x6250_S6250x10_S256x10_1_0_0_1_n_n_wf : DotDims.WF S256x6250 S6250x10 S256x10 [1] [0] [0] [1] [] []

variable [Facts₀]

def dot_S256x4096_S4096x6250_S256x6250_1_0_0_1_n_n : DotDims S256x4096 S4096x6250 S256x6250 where
  lhsContracting := [1]
  rhsContracting := [0]
  lhsNonContracting := [0]
  rhsNonContracting := [1]
  lhsBatch := []
  rhsBatch := []
  wf := dot_S256x4096_S4096x6250_S256x6250_1_0_0_1_n_n_wf
def dot_S256x6250_S6250x10_S256x10_1_0_0_1_n_n : DotDims S256x6250 S6250x10 S256x10 where
  lhsContracting := [1]
  rhsContracting := [0]
  lhsNonContracting := [0]
  rhsNonContracting := [1]
  lhsBatch := []
  rhsBatch := []
  wf := dot_S256x6250_S6250x10_S256x10_1_0_0_1_n_n_wf

class Facts : Prop extends Facts₀ where

variable [Facts]
-- ==== Proof.CaseValues.lean ====
/-
  What the body leaves in the output block, in each of its two cases, as a value (at any instance).

  At a point whose second grid coordinate is zero the body first stores the zero block over the output block, then
  loads everything, and stores "carried block + tile's contribution" with the carried block being the zero block it
  has just stored. At every other point it loads the block the point before left and stores that plus the tile's
  contribution. Every load and store is of a whole staging buffer, so the stored block is the body's arithmetic applied
  to the buffers' contents.
-/
import proofs.«175752_j30288109371710_2_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that does not reset: the block left before, plus the tile's contribution. -/
theorem value_carry (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S256x10 .f32) (harg7 : arg7.IsWhole) (arg8 : Memref sig .tc .vmem S1x256x10 .f32) (harg8 : arg8.IsWhole) (hc0 : ¬cond0_0 i)
    (x0 : Vec F S256x4096 .bf16) (x1 : Vec F S256x4096 .bf16) (x2 : Vec F S256x4096 .bf16) (x3 : Vec F S256x4096 .bf16) (x4 : Vec F S1x256 .f32) (x5 : Vec F S256x10 .f32) (xo6 : Vec F S1x256x10 .f32) :
    out0_B_6 c i arg2 harg2 arg3 harg3 arg4 harg4 arg5 harg5 arg6 harg6 arg7 harg7 arg8 harg8 hc0 x0 x1 x2 x3 x4 x5 xo6 = k0_pay1 (k0_pay3 x0 x1 x2 x3 x4 x5 xo6) := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo6)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, View.ld_unit_zero (S := S256x4096) hz2, View.ld_unit_zero (S := S1x256) hz2,
    View.ld_unit_zero (S := S256x10) hz2, View.ld_unit_zero (S := S1x256x10) hz3]

/-- A point that resets: the zero block, plus the tile's contribution. -/
theorem value_reset (c : Dev nD) (i : grid0.Coords) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S256x10 .f32) (harg7 : arg7.IsWhole) (arg8 : Memref sig .tc .vmem S1x256x10 .f32) (harg8 : arg8.IsWhole) (hc0 : cond0_0 i)
    (x0 : Vec F S256x4096 .bf16) (x1 : Vec F S256x4096 .bf16) (x2 : Vec F S256x4096 .bf16) (x3 : Vec F S256x4096 .bf16) (x4 : Vec F S1x256 .f32) (x5 : Vec F S256x10 .f32) :
    out0_A_6 c i arg2 harg2 arg3 harg3 arg4 harg4 arg5 harg5 arg6 harg6 arg7 harg7 arg8 harg8 hc0 x0 x1 x2 x3 x4 x5 = k0_pay1 (k0_pay3 x0 x1 x2 x3 x4 x5 (k0_pay2 (F := F))) := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S1x256x10) hz3, View.readCov_unit_zero (S := S1x256x10) _ hz3]
  simp only [View.readAt_eq_ld, harg2.read_unread, harg3.read_unread, harg4.read_unread, harg5.read_unread, harg6.read_unread,
    harg7.read_unread, harg8.read_unread, View.ld_unit_zero (S := S256x4096) hz2, View.ld_unit_zero (S := S1x256) hz2,
    View.ld_unit_zero (S := S256x10) hz2, View.ld_unit_zero (S := S1x256x10) hz3]

variable (m : (ℓ : Loc nD τ sig) → Buf (Elt F) ℓ)

/-- What the output's staging buffer holds after a resetting point `t`, over that point's blocks. -/
theorem outsAt_reset (c : Dev nD) (t : Fin cfg0.N) (h0 : t.val % 13 = 0) :
    outsAt0 m c t.val t.isLt
      = k0_pay1 (k0_pay3 (iblk m c 0 t) (iblk m c 1 t) (iblk m c 2 t) (iblk m c 3 t) (iblk m c 4 t) (iblk m c 5 t) (k0_pay2 (F := F))) :=
  (outsAt0_A m c t h0).trans
    (value_reset c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) ((hcond0_0 t).mpr h0)
      (iblk m c 0 t) (iblk m c 1 t) (iblk m c 2 t) (iblk m c 3 t) (iblk m c 4 t) (iblk m c 5 t))

/-- What it holds after any other point `t`, over that point's blocks and what the point before left. -/
theorem outsAt_carry (c : Dev nD) (t : Fin cfg0.N) (h0 : ¬t.val % 13 = 0) :
    outsAt0 m c t.val t.isLt
      = k0_pay1 (k0_pay3 (iblk m c 0 t) (iblk m c 1 t) (iblk m c 2 t) (iblk m c 3 t) (iblk m c 4 t) (iblk m c 5 t)
          (outsAt0 m c (t.val - 1) (Nat.lt_of_le_of_lt (Nat.sub_le _ _) t.isLt))) :=
  (outsAt0_B m c t h0).trans
    (value_carry c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (fun h => h0 ((hcond0_0 t).mp h))
      (iblk m c 0 t) (iblk m c 1 t) (iblk m c 2 t) (iblk m c 3 t) (iblk m c 4 t) (iblk m c 5 t)
      (outsAt0 m c (t.val - 1) (Nat.lt_of_le_of_lt (Nat.sub_le _ _) t.isLt)))

end Cert.KernelIdeal.Cases
-- ==== Proof.LibTileSum.lean ====
/-
  Regrouping a finite sum of extended reals by tiles of equal width.

  Addition on the extended reals is commutative and associative, so a sum over the first `w * T`
  natural numbers is the sum, tile by tile, of the sums inside each tile of width `w`; nothing about
  finiteness of the terms is used.
-/
import Idealize.ShloMosaic.PureOps.Ideal

namespace Cert.Lib

open Finset

/-- A sum over `w * T` consecutive indices is the sum over the `T` tiles of width `w` of the sum
    inside each tile: index `n = w * t + j` with `t < T`, `j < w`. -/
theorem sum_range_tiles (w T : ℕ) (f : ℕ → EReal) :
    ∑ n ∈ range (w * T), f n = ∑ t ∈ range T, ∑ j ∈ range w, f (w * t + j) := by
  induction T with
  | zero => simp
  | succ T ih =>
    rw [Nat.mul_succ, sum_range_add, ih, sum_range_succ]

end Cert.Lib
-- ==== Proof.Spec.lean ====
/-
  The function both programs compute, and the arithmetic that joins their two arrangements of it.

  For a batch row `b` and an output feature `N < 6250` write
      a_i(b, N) = ∑_k z(b, k) · (mask(N, k) · T_i(N, k))          (i = 1, 2, 3)
      x₃(b, N)  = (2 · a₃) · ((2 · a₂) · a₁ − T0(N)) − a₁ .
  The result at `(b, o)` is `(∑_{N < 6250} x₃(b, N) · C_w(o, N)) + C_b(o)`.

  One program takes the sum over `N` whole. The other extends the summand by zero up to `6656 = 26 · 256`
  (its `C_w` columns past 6250 are zero, and `x · 0 = 0` on the extended reals whatever `x` is), cuts the range
  into 26 tiles of 256, adds tiles 0 … 12 into one accumulator and tiles 13 … 25 into another, each from zero, and
  adds the two. Addition of extended reals is commutative and associative, so the two arrangements agree; no
  finiteness of any entry is used.
-/
import Idealize.ShloMosaic.PureOps.Ideal
import Idealize.ShloMosaic.Lib.ValueIdx
import proofs.«175752_j30288109371710_2_alg».proof.Proof.LibTileSum

noncomputable section

namespace Cert.Cheby

open Finset Idealize.ShloMosaic

/-- The literal `2.0` of both programs, kept as its word. -/
abbrev two : EReal := Ideal.ofBits .f32 0x40000000#32

/-- One column of the recurrence from its three contractions and its offset:
    `x₁ = a₁`, `x₂ = (2·a₂)·x₁ − t₀`, `x₃ = (2·a₃)·x₂ − x₁`. -/
def cheb (a1 a2 a3 t0 : EReal) : EReal := two * a3 * (two * a2 * a1 - t0) - a1

section
variable (z : Fin 256 → Fin 4096 → EReal) (mask T1 T2 T3 : Fin 6250 → Fin 4096 → EReal)
  (T0 : Fin 6250 → EReal) (Cw : Fin 10 → Fin 6250 → EReal) (Cb : Fin 10 → EReal)

/-- `x₃` at batch row `b` and output feature `N`. -/
def x3 (b : Fin 256) (N : Fin 6250) : EReal :=
  cheb (∑ k, z b k * (mask N k * T1 N k)) (∑ k, z b k * (mask N k * T2 N k))
    (∑ k, z b k * (mask N k * T3 N k)) (T0 N)

/-- The result at `(b, o)`. -/
def G (b : Fin 256) (o : Fin 10) : EReal := (∑ N : Fin 6250, x3 z mask T1 T2 T3 T0 b N * Cw o N) + Cb o

/-- The `N`-th summand of the result's sum, extended by zero past 6250. -/
def term (b : Fin 256) (o : Fin 10) (N : ℕ) : EReal :=
  if h : N < 6250 then x3 z mask T1 T2 T3 T0 b ⟨N, h⟩ * Cw o ⟨N, h⟩ else 0

/-- The sum of the summands over tile `t`: indices `256·t, …, 256·t + 255`. -/
def tile (b : Fin 256) (o : Fin 10) (t : ℕ) : EReal := ∑ j ∈ range 256, term z mask T1 T2 T3 T0 Cw b o (256 * t + j)

/-- The sum over `cnt` consecutive tiles from tile `t0`. -/
def tiles (b : Fin 256) (o : Fin 10) (t0 cnt : ℕ) : EReal := ∑ s ∈ range cnt, tile z mask T1 T2 T3 T0 Cw b o (t0 + s)

/-- What an accumulator that is reset at the points `≡ 0 (mod 13)` holds after point `n`: the tiles from the last
    reset up to `n`. -/
def acc (b : Fin 256) (o : Fin 10) (n : ℕ) : EReal := tiles z mask T1 T2 T3 T0 Cw b o (13 * (n / 13)) (n % 13 + 1)

/-- A tile computed from blocks: if the blocks hold the entries of tile `t` wherever the feature index is below 6250,
    and the `C_w` block is zero wherever it is not, the block contraction is the tile's sum. -/
theorem tile_of_blocks (t : ℕ) (b : Fin 256) (o : Fin 10)
    (zb : Fin 4096 → EReal) (w1 w2 w3 : Fin 256 → Fin 4096 → EReal) (t0b : Fin 256 → EReal) (cw : Fin 256 → EReal)
    (hz : ∀ k, zb k = z b k)
    (hin : ∀ (n : Fin 256) (h : 256 * t + n.val < 6250),
      (∀ k, w1 n k = mask ⟨_, h⟩ k * T1 ⟨_, h⟩ k) ∧ (∀ k, w2 n k = mask ⟨_, h⟩ k * T2 ⟨_, h⟩ k)
        ∧ (∀ k, w3 n k = mask ⟨_, h⟩ k * T3 ⟨_, h⟩ k) ∧ t0b n = T0 ⟨_, h⟩ ∧ cw n = Cw o ⟨_, h⟩)
    (hout : ∀ n : Fin 256, ¬256 * t + n.val < 6250 → cw n = 0) :
    ∑ n : Fin 256, cheb (∑ k, zb k * w1 n k) (∑ k, zb k * w2 n k) (∑ k, zb k * w3 n k) (t0b n) * cw n
      = tile z mask T1 T2 T3 T0 Cw b o t := by
  unfold tile
  rw [← Fin.sum_univ_eq_sum_range (fun j => term z mask T1 T2 T3 T0 Cw b o (256 * t + j)) 256]
  refine sum_congr rfl fun n _ => ?_
  unfold term
  by_cases h : 256 * t + n.val < 6250
  · obtain ⟨h1, h2, h3, h4, h5⟩ := hin n h
    rw [dif_pos h, h4, h5]
    unfold x3
    simp only [hz, h1, h2, h3]
  · rw [dif_neg h, hout n h, mul_zero]

/-- At a reset point the accumulator holds that point's tile alone. -/
theorem acc_reset (b : Fin 256) (o : Fin 10) (n : ℕ) (h : n % 13 = 0) :
    acc z mask T1 T2 T3 T0 Cw b o n = 0 + tile z mask T1 T2 T3 T0 Cw b o n := by
  unfold acc tiles
  rw [h, sum_range_one, zero_add]
  congr 1
  omega

/-- At any other point it holds what it held before plus that point's tile. -/
theorem acc_step (b : Fin 256) (o : Fin 10) (n : ℕ) (h : ¬(n + 1) % 13 = 0) :
    acc z mask T1 T2 T3 T0 Cw b o (n + 1)
      = acc z mask T1 T2 T3 T0 Cw b o n + tile z mask T1 T2 T3 T0 Cw b o (n + 1) := by
  unfold acc tiles
  have h1 : (n + 1) / 13 = n / 13 := by omega
  have h2 : (n + 1) % 13 + 1 = (n % 13 + 1) + 1 := by omega
  rw [h1, h2, sum_range_succ]
  congr 2
  omega

/-- After point 12 the first accumulator holds tiles 0 … 12, after point 25 the second holds tiles 13 … 25. -/
theorem acc_12 (b : Fin 256) (o : Fin 10) :
    acc z mask T1 T2 T3 T0 Cw b o 12 = tiles z mask T1 T2 T3 T0 Cw b o 0 13 := rfl
theorem acc_25 (b : Fin 256) (o : Fin 10) :
    acc z mask T1 T2 T3 T0 Cw b o 25 = tiles z mask T1 T2 T3 T0 Cw b o 13 13 := rfl

/-- The two accumulators' final contents and the bias add up to the result: the 26 tiles are the range below 6656
    cut into pieces of 256, and past 6250 every summand is zero. -/
theorem halves_add_bias (b : Fin 256) (o : Fin 10) :
    tiles z mask T1 T2 T3 T0 Cw b o 0 13 + tiles z mask T1 T2 T3 T0 Cw b o 13 13 + Cb o
      = G z mask T1 T2 T3 T0 Cw Cb b o := by
  unfold G
  congr 1
  have e26 : tiles z mask T1 T2 T3 T0 Cw b o 0 13 + tiles z mask T1 T2 T3 T0 Cw b o 13 13
      = ∑ s ∈ range 26, tile z mask T1 T2 T3 T0 Cw b o s := by
    unfold tiles
    rw [show (26 : ℕ) = 13 + 13 from rfl, sum_range_add]
    simp only [zero_add]
  rw [e26]
  unfold tile
  rw [← Cert.Lib.sum_range_tiles 256 26 (term z mask T1 T2 T3 T0 Cw b o),
    show (256 * 26 : ℕ) = 6250 + 406 from rfl, sum_range_add]
  have hz : ∑ x ∈ range 406, term z mask T1 T2 T3 T0 Cw b o (6250 + x) = 0 :=
    sum_eq_zero fun x _ => by unfold term; rw [dif_neg (by omega)]
  rw [hz, add_zero, ← Fin.sum_univ_eq_sum_range (term z mask T1 T2 T3 T0 Cw b o) 6250]
  refine sum_congr rfl fun N _ => ?_
  unfold term
  rw [dif_pos N.isLt]

end

open Idealize.ShloMosaic.ValueIdx in
/-- The result as ONE function of the eight argument arrays, index by index: `G` of their entries read by
    coordinates (`x0` the batch, `x1 x2 x3` the three weight tensors, `x4` the offsets, `x5` the final matrix,
    `x6` the bias, `x7` the mask). -/
def result (x0 : (⟨2, ![256, 4096]⟩ : Shape).Idx → EReal) (x1 x2 x3 : (⟨2, ![6250, 4096]⟩ : Shape).Idx → EReal)
    (x4 : (⟨1, ![6250]⟩ : Shape).Idx → EReal) (x5 : (⟨2, ![10, 6250]⟩ : Shape).Idx → EReal)
    (x6 : (⟨1, ![10]⟩ : Shape).Idx → EReal) (x7 : (⟨2, ![6250, 4096]⟩ : Shape).Idx → EReal) :
    (⟨2, ![256, 10]⟩ : Shape).Idx → EReal :=
  fun i => G (fun b k => x0 (ix2 b k)) (fun N k => x7 (ix2 N k)) (fun N k => x1 (ix2 N k)) (fun N k => x2 (ix2 N k))
    (fun N k => x3 (ix2 N k)) (fun N => x4 (ix1 N)) (fun o N => x5 (ix2 o N)) (fun o => x6 (ix1 o)) (i 0) (i 1)

end Cert.Cheby
-- ==== Proof.KernelPay.lean ====
/-
  The kernel body's arithmetic, read at one entry, at the ideal instance.

  At a grid point the body holds a batch block `zb` (256 × 4096), three weight blocks `w₁ w₂ w₃` (256 × 4096: one row
  per output feature of the tile), the tile's offsets `t₀` (1 × 256), the tile's rows of the final matrix `cw`
  (256 × 10) and the running block `xo` (1 × 256 × 10). It forms the three products `zb · wᵢᵀ` into zero
  accumulators, the recurrence column by column, the product of that with `cw` into a zero accumulator, and adds
  `xo`. Read at `(b, o)` this is `xo(0, b, o) + ∑ₙ cheb(∑ₖ zb(b,k)·w₁(n,k), …, t₀(0, n)) · cw(n, o)`.
-/
import proofs.«175752_j30288109371710_2_alg».proof.Proof.Gen.KernelIdeal.Skeleton
import proofs.«175752_j30288109371710_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx
open Cert.Cheby

/-- A batch block times a transposed weight block, into a zero accumulator, at `(b, n)`: the contraction over the
    4096 input features of row `b` of the one with row `n` of the other. -/
theorem mm_zw (zb wb : FVec Ideal S256x4096 .bf16) (b n : Fin 256) :
    matmul dot_S256x4096_S4096x256_S256x256_1_0_0_1_n_n none zb
        (transpose S4096x256 [1, 0] wb transposes_S256x4096_p1_0_S4096x256) (constant S256x256 .f32 0x00000000#32) (ix2 b n)
      = ∑ k : Fin 4096, zb (ix2 b k) * wb (ix2 n k) := by
  have hT : ∀ k : Fin 4096, transpose S4096x256 [1, 0] wb transposes_S256x4096_p1_0_S4096x256 (ix2 k n) = wb (ix2 n k) :=
    fun k => transpose_ix2_apply wb transposes_S256x4096_p1_0_S4096x256 k n
  generalize transpose S4096x256 [1, 0] wb transposes_S256x4096_p1_0_S4096x256 = wT at hT ⊢
  simp only [matmul]
  rw [Ideal.matmul_constant_zero_apply, ← Equiv.sum_comp (ValueIdx.contrEquiv1 dot_S256x4096_S4096x256_S256x256_1_0_0_1_n_n 4096 rfl rfl).symm]
  refine Finset.sum_congr rfl fun k _ => ?_
  have hk := ValueIdx.contrEquiv1_symm_val dot_S256x4096_S4096x256_S256x256_1_0_0_1_n_n 4096 rfl rfl k
  have el : dot_S256x4096_S4096x256_S256x256_1_0_0_1_n_n.lhsIdx (ix2 b n) ((ValueIdx.contrEquiv1 dot_S256x4096_S4096x256_S256x256_1_0_0_1_n_n 4096 rfl rfl).symm k) = ix2 b k := funext fun a => Fin.ext (by
    match a with
    | ⟨0, _⟩ =>
      show (dot_S256x4096_S4096x256_S256x256_1_0_0_1_n_n.lhsIdx (ix2 b n) _ 0).val = b.val
      unfold DotDims.lhsIdx
      rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
      rfl
    | ⟨1, _⟩ => exact (dot_S256x4096_S4096x256_S256x256_1_0_0_1_n_n.lhsIdx_val_of_single rfl _ _).trans hk)
  have er : dot_S256x4096_S4096x256_S256x256_1_0_0_1_n_n.rhsIdx (ix2 b n) ((ValueIdx.contrEquiv1 dot_S256x4096_S4096x256_S256x256_1_0_0_1_n_n 4096 rfl rfl).symm k) = ix2 k n := funext fun a => Fin.ext (by
    match a with
    | ⟨0, _⟩ => exact (dot_S256x4096_S4096x256_S256x256_1_0_0_1_n_n.rhsIdx_val_of_single rfl _ _).trans hk
    | ⟨1, _⟩ =>
      show (dot_S256x4096_S4096x256_S256x256_1_0_0_1_n_n.rhsIdx (ix2 b n) _ 1).val = n.val
      unfold DotDims.rhsIdx
      rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
      rfl)
  rw [el, er, hT]

/-- The recurrence's columns times the tile's rows of the final matrix, into a zero accumulator, at `(b, o)`: the
    contraction over the 256 output features of the tile. -/
theorem mm_xc (xv : FVec Ideal S256x256 .f32) (cw : FVec Ideal S256x10 .f32) (b : Fin 256) (o : Fin 10) :
    matmul dot_S256x256_S256x10_S256x10_1_0_0_1_n_n none xv cw (constant S256x10 .f32 0x00000000#32) (ix2 b o)
      = ∑ n : Fin 256, xv (ix2 b n) * cw (ix2 n o) := by
  simp only [matmul]
  rw [Ideal.matmul_constant_zero_apply, ← Equiv.sum_comp (ValueIdx.contrEquiv1 dot_S256x256_S256x10_S256x10_1_0_0_1_n_n 256 rfl rfl).symm]
  refine Finset.sum_congr rfl fun k _ => ?_
  have hk := ValueIdx.contrEquiv1_symm_val dot_S256x256_S256x10_S256x10_1_0_0_1_n_n 256 rfl rfl k
  have el : dot_S256x256_S256x10_S256x10_1_0_0_1_n_n.lhsIdx (ix2 b o) ((ValueIdx.contrEquiv1 dot_S256x256_S256x10_S256x10_1_0_0_1_n_n 256 rfl rfl).symm k) = ix2 b k := funext fun a => Fin.ext (by
    match a with
    | ⟨0, _⟩ =>
      show (dot_S256x256_S256x10_S256x10_1_0_0_1_n_n.lhsIdx (ix2 b o) _ 0).val = b.val
      unfold DotDims.lhsIdx
      rw [dif_neg (show ¬(0 : Fin S256x256.rank) ∈ dot_S256x256_S256x10_S256x10_1_0_0_1_n_n.lhsBatch by decide), dif_pos (show (0 : Fin S256x256.rank) ∈ dot_S256x256_S256x10_S256x10_1_0_0_1_n_n.lhsNonContracting by decide)]
      rfl
    | ⟨1, _⟩ => exact (dot_S256x256_S256x10_S256x10_1_0_0_1_n_n.lhsIdx_val_of_single rfl _ _).trans hk)
  have er : dot_S256x256_S256x10_S256x10_1_0_0_1_n_n.rhsIdx (ix2 b o) ((ValueIdx.contrEquiv1 dot_S256x256_S256x10_S256x10_1_0_0_1_n_n 256 rfl rfl).symm k) = ix2 k o := funext fun a => Fin.ext (by
    match a with
    | ⟨0, _⟩ => exact (dot_S256x256_S256x10_S256x10_1_0_0_1_n_n.rhsIdx_val_of_single rfl _ _).trans hk
    | ⟨1, _⟩ =>
      show (dot_S256x256_S256x10_S256x10_1_0_0_1_n_n.rhsIdx (ix2 b o) _ 1).val = o.val
      unfold DotDims.rhsIdx
      rw [dif_neg (show ¬(1 : Fin S256x10.rank) ∈ dot_S256x256_S256x10_S256x10_1_0_0_1_n_n.rhsBatch by decide), dif_pos (show (1 : Fin S256x10.rank) ∈ dot_S256x256_S256x10_S256x10_1_0_0_1_n_n.rhsNonContracting by decide)]
      rfl)
  rw [el, er]

/-- The body's accumulated block at `(b, o)`: the running block's entry plus the tile's contraction. -/
theorem pay3_apply (zb w1 w2 w3 : Vec Ideal S256x4096 .bf16) (t0 : Vec Ideal S1x256 .f32) (cw : Vec Ideal S256x10 .f32)
    (xo : Vec Ideal S1x256x10 .f32) (b : Fin 256) (o : Fin 10) :
    k0_pay3 zb w1 w2 w3 t0 cw xo (ix2 b o)
      = xo (ix3 (0 : Fin 1) b o)
        + ∑ n : Fin 256, cheb (∑ k : Fin 4096, zb (ix2 b k) * w1 (ix2 n k)) (∑ k : Fin 4096, zb (ix2 b k) * w2 (ix2 n k))
            (∑ k : Fin 4096, zb (ix2 b k) * w3 (ix2 n k)) (t0 (ix2 (0 : Fin 1) n)) * cw (ix2 n o) := by
  unfold k0_pay3
  simp only [shapeCast_self]
  rw [addf_apply, shapeCast_1ab_ab_apply, mm_xc]
  congr 1
  refine Finset.sum_congr rfl fun n _ => ?_
  rw [subf_apply, mulf_apply, mulf_apply, subf_apply, mulf_apply, mulf_apply, broadcastTo_1b_ab_apply, mm_zw, mm_zw, mm_zw]
  rfl

/-- The zero block the reset stores, at any entry. -/
theorem pay2_apply (u : Fin 1) (b : Fin 256) (o : Fin 10) : k0_pay2 (F := Ideal) (ix3 u b o) = 0 := by
  unfold k0_pay2
  rw [shapeCast_ab_1ab_apply, broadcast_apply]
  exact Ideal.ofBits_zero_f32

/-- The stored block is the accumulated one with a unit axis in front. -/
theorem pay1_apply (v : FVec Ideal S256x10 .f32) (u : Fin 1) (b : Fin 256) (o : Fin 10) :
    k0_pay1 v (ix3 u b o) = v (ix2 b o) := by
  unfold k0_pay1
  exact shapeCast_ab_1ab_apply v shapeCasts_S256x10_S1x256x10 u b o

end Cert.KernelIdeal.Pay
-- ==== Proof.LibPadRows.lean ====
/-
  A host `pad` that only appends entries at the high end of the leading axis, read at an index.

  `stablehlo.pad` with zero low padding, zero interior padding and `p` entries of high padding on axis 0 (none on
  the other axes) keeps the operand where the leading coordinate is below the operand's extent and holds the
  padding value everywhere else. Stated for a matrix (rows appended) and for a vector (entries appended), with the
  indices written by coordinates.
-/
import Idealize.ShloMosaic.Lib.KernelVsHost
import Idealize.ShloMosaic.Lib.ValueIdx

noncomputable section

namespace Cert.Lib

open Idealize.ShloMosaic Idealize.ShloMosaic.ValueIdx

variable {α : Type}

/-- Rows appended below a matrix: a row of the operand is kept. -/
theorem pad_rows_inside {a a' b p : ℕ} (x : (⟨2, ![a, b]⟩ : Shape).Idx → α) {u : Shape} (v : u.Idx → α)
    (h : (⟨2, ![a, b]⟩ : Shape).Pads (![0, 0] : Fin 2 → ℕ) ![p, 0] ![0, 0] ⟨2, ![a', b]⟩) (hu : 0 < u.numel)
    (N : Fin a') (k : Fin b) (hN : N.val < a) :
    pad ⟨2, ![a', b]⟩ ![0, 0] ![p, 0] ![0, 0] x v h hu (ix2 N k) = x (ix2 ⟨N.val, hN⟩ k) :=
  pad_apply_of_inside _ _ _ x v h hu (ix2 N k) (ix2 ⟨N.val, hN⟩ k) fun ax => match ax with
    | ⟨0, _⟩ => by show N.val = 0 + N.val * (0 + 1); omega
    | ⟨1, _⟩ => by show k.val = 0 + k.val * (0 + 1); omega

/-- Rows appended below a matrix: an appended row holds the padding value. -/
theorem pad_rows_outside {a a' b p : ℕ} (x : (⟨2, ![a, b]⟩ : Shape).Idx → α) {u : Shape} (v : u.Idx → α)
    (h : (⟨2, ![a, b]⟩ : Shape).Pads (![0, 0] : Fin 2 → ℕ) ![p, 0] ![0, 0] ⟨2, ![a', b]⟩) (hu : 0 < u.numel)
    (N : Fin a') (k : Fin b) (hN : ¬N.val < a) :
    pad ⟨2, ![a', b]⟩ ![0, 0] ![p, 0] ![0, 0] x v h hu (ix2 N k) = v (Shape.Idx.first hu) :=
  pad_apply_of_not_inside _ _ _ x v h hu (ix2 N k) (0 : Fin 2) (by
    show ¬(0 ≤ N.val ∧ (N.val - 0) % (0 + 1) = 0 ∧ (N.val - 0) / (0 + 1) < a)
    omega)

/-- Entries appended to a vector: an entry of the operand is kept. -/
theorem pad_vec_inside {a a' p : ℕ} (x : (⟨1, ![a]⟩ : Shape).Idx → α) {u : Shape} (v : u.Idx → α)
    (h : (⟨1, ![a]⟩ : Shape).Pads (![0] : Fin 1 → ℕ) ![p] ![0] ⟨1, ![a']⟩) (hu : 0 < u.numel)
    (N : Fin a') (hN : N.val < a) :
    pad ⟨1, ![a']⟩ ![0] ![p] ![0] x v h hu (ix1 N) = x (ix1 ⟨N.val, hN⟩) :=
  pad_apply_of_inside _ _ _ x v h hu (ix1 N) (ix1 ⟨N.val, hN⟩) fun ax => match ax with
    | ⟨0, _⟩ => by show N.val = 0 + N.val * (0 + 1); omega

end Cert.Lib
-- ==== Proof.Inputs.lean ====
/-
  What the kernel's blocks hold, entry by entry, in terms of the argument arrays (at the ideal instance).

  Before the region the host forms, from the arguments: the batch with its format changed (the identity here); each
  weight tensor times the mask, with 406 rows of the padding value appended (6250 → 6656 rows) and its format changed;
  the offsets with 406 entries appended, as one row; the final matrix transposed, with 406 rows appended. The padding
  value is the integer zero read as a float: `0`.

  At grid point `t` (linear: `t = 13 · core + step`) the weight, offset and final-matrix windows show rows (entries)
  `256·t … 256·t + 255` of those arrays, the batch window the whole batch. So a block entry at in-tile position `n`
  is the argument's entry at feature `256·t + n` where that is below 6250, and the final matrix's block is `0`
  where it is not.
-/
import proofs.«175752_j30288109371710_2_alg».proof.Proof.Gen.KernelIdeal.Frame.Runs
import proofs.«175752_j30288109371710_2_alg».proof.Proof.LibPadRows
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Inputs

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The argument arrays, named -/

abbrev A0 (c : Dev nD) : FVec Ideal S256x4096 .f32 := m ((c : Thread nD τ).loc main_arg0)
abbrev A1 (c : Dev nD) : FVec Ideal S6250x4096 .f32 := m ((c : Thread nD τ).loc main_arg1)
abbrev A2 (c : Dev nD) : FVec Ideal S6250x4096 .f32 := m ((c : Thread nD τ).loc main_arg2)
abbrev A3 (c : Dev nD) : FVec Ideal S6250x4096 .f32 := m ((c : Thread nD τ).loc main_arg3)
abbrev A4 (c : Dev nD) : FVec Ideal S6250 .f32 := m ((c : Thread nD τ).loc main_arg4)
abbrev A5 (c : Dev nD) : FVec Ideal S10x6250 .f32 := m ((c : Thread nD τ).loc main_arg5)
abbrev A6 (c : Dev nD) : FVec Ideal S10 .f32 := m ((c : Thread nD τ).loc main_arg6)
abbrev A7 (c : Dev nD) : FVec Ideal S6250x4096 .f32 := m ((c : Thread nD τ).loc main_arg7)

/-! ## The arrays the region finds, as the host operations' terms -/

/-- Opens `V` at a buffer a host operation before the region wrote: the operations' composed term. -/
local macro "open_entry" : tactic =>
  `(tactic| (dsimp only [V, V0]
             simp only [hostOps0, hostOps0_1, hostOps0_2, hostOps0_3, hostOps0_4, hostOps0_5, hostOps0_6, hostOps0_7, hostOps0_8,
               hostOps0_9, List.flatten_cons, List.flatten_nil, List.append_nil, List.cons_append, List.nil_append]
             after_results))

/-- The padding value: the integer zero, read as a float. -/
abbrev pv : FVec Ideal S_ .f32 := sitofp .f32 (constantI S_ 32 0#32)

theorem pv_apply (i : S_.Idx) : pv i = 0 := by
  show (((0#32 : BitVec 32).toInt : ℝ) : EReal) = 0
  simp

theorem entry_batch (c : Dev nD) : (V m c main_v0 : Vec Ideal S256x4096 .bf16) = truncf .bf16 (A0 m c) bitsLt_bf16_f32 := by
  open_entry

theorem entry_w1 (c : Dev nD) : (V m c main_v3 : Vec Ideal S6656x4096 .bf16)
    = truncf .bf16 (pad S6656x4096 ![0, 0] ![406, 0] ![0, 0] (mulf (A7 m c) (A1 m c)) pv
        pads_S6250x4096_S6656x4096_04060_000 h_S_) bitsLt_bf16_f32 := by
  open_entry
  rfl

theorem entry_w2 (c : Dev nD) : (V m c main_v6 : Vec Ideal S6656x4096 .bf16)
    = truncf .bf16 (pad S6656x4096 ![0, 0] ![406, 0] ![0, 0] (mulf (A7 m c) (A2 m c)) pv
        pads_S6250x4096_S6656x4096_04060_000 h_S_) bitsLt_bf16_f32 := by
  open_entry
  rfl

theorem entry_w3 (c : Dev nD) : (V m c main_v9 : Vec Ideal S6656x4096 .bf16)
    = truncf .bf16 (pad S6656x4096 ![0, 0] ![406, 0] ![0, 0] (mulf (A7 m c) (A3 m c)) pv
        pads_S6250x4096_S6656x4096_04060_000 h_S_) bitsLt_bf16_f32 := by
  open_entry
  rfl

theorem entry_t0 (c : Dev nD) : (V m c main_v11 : Vec Ideal S1x6656 .f32)
    = shapeCast S1x6656 (pad S6656 ![0] ![406] ![0] (A4 m c) pv pads_S6250_S6656_04060 h_S_) shapeCasts_S6656_S1x6656 := by
  open_entry
  rfl

theorem entry_cw (c : Dev nD) : (V m c main_v13 : Vec Ideal S6656x10 .f32)
    = pad S6656x10 ![0, 0] ![406, 0] ![0, 0] (transpose S6250x10 [1, 0] (A5 m c) transposes_S10x6250_S6250x10_1_0) pv
        pads_S6250x10_S6656x10_04060_000 h_S_ := by
  open_entry
  rfl

/-! ## Those arrays read at an entry -/

/-- A padded, masked weight array at a row below 6250: mask times weight there. -/
theorem weight_entry (mk T : FVec Ideal S6250x4096 .f32) (N : Fin 6656) (k : Fin 4096) (hN : N.val < 6250) :
    (truncf .bf16 (pad S6656x4096 ![0, 0] ![406, 0] ![0, 0] (mulf mk T) pv pads_S6250x4096_S6656x4096_04060_000 h_S_)
        bitsLt_bf16_f32 : FVec Ideal S6656x4096 .bf16) (ix2 N k)
      = mk (ix2 ⟨N.val, hN⟩ k) * T (ix2 ⟨N.val, hN⟩ k) := by
  rw [truncf_apply, Cert.Lib.pad_rows_inside (mulf mk T) pv pads_S6250x4096_S6656x4096_04060_000 h_S_ N k hN, mulf_apply]

/-- The padded offsets, as one row, at an entry below 6250. -/
theorem t0_entry (T0 : FVec Ideal S6250 .f32) (N : Fin 6656) (hN : N.val < 6250) :
    (shapeCast S1x6656 (pad S6656 ![0] ![406] ![0] T0 pv pads_S6250_S6656_04060 h_S_) shapeCasts_S6656_S1x6656
        : FVec Ideal S1x6656 .f32) (ix2 (0 : Fin 1) N) = T0 (ix1 ⟨N.val, hN⟩) := by
  rw [shapeCast_a_1a_apply, Cert.Lib.pad_vec_inside T0 pv pads_S6250_S6656_04060 h_S_ N hN]

/-- The padded, transposed final matrix at a row below 6250. -/
theorem cw_entry_in (Cw : FVec Ideal S10x6250 .f32) (N : Fin 6656) (o : Fin 10) (hN : N.val < 6250) :
    (pad S6656x10 ![0, 0] ![406, 0] ![0, 0] (transpose S6250x10 [1, 0] Cw transposes_S10x6250_S6250x10_1_0) pv
        pads_S6250x10_S6656x10_04060_000 h_S_ : FVec Ideal S6656x10 .f32) (ix2 N o) = Cw (ix2 o ⟨N.val, hN⟩) := by
  rw [Cert.Lib.pad_rows_inside _ pv pads_S6250x10_S6656x10_04060_000 h_S_ N o hN, transpose_ix2_apply]

/-- The padded, transposed final matrix at an appended row: `0`. -/
theorem cw_entry_out (Cw : FVec Ideal S10x6250 .f32) (N : Fin 6656) (o : Fin 10) (hN : ¬N.val < 6250) :
    (pad S6656x10 ![0, 0] ![406, 0] ![0, 0] (transpose S6250x10 [1, 0] Cw transposes_S10x6250_S6250x10_1_0) pv
        pads_S6250x10_S6656x10_04060_000 h_S_ : FVec Ideal S6656x10 .f32) (ix2 N o) = 0 := by
  rw [Cert.Lib.pad_rows_outside _ pv pads_S6250x10_S6656x10_04060_000 h_S_ N o hN]
  exact pv_apply _

/-! ## Where each window's block sits in its array -/

theorem point_lt (t : Fin cfg0.N) : t.val < 26 := lt_of_lt_of_eq t.isLt (show cfg0.N = 26 from N_0)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = 0 ∧ win0_4.index t 1 = t.val :=
  (by decide +kernel : ∀ t : Fin grid0.N, win0_4.index t 0 = 0 ∧ win0_4.index t 1 = t.val)
theorem index5 : ∀ t : Fin cfg0.N, win0_5.index t 0 = t.val ∧ win0_5.index t 1 = 0 :=
  (by decide +kernel : ∀ t : Fin grid0.N, win0_5.index t 0 = t.val ∧ win0_5.index t 1 = 0)

/-- The batch window shows the whole batch at every point. -/
theorem block0_at (c : Dev nD) (t : Fin cfg0.N) (b : Fin 256) (k : Fin 4096) :
    (iblk m c 0 t : Vec Ideal S256x4096 .bf16) (ix2 b k) = (V m c main_v0 : Vec Ideal S256x4096 .bf16) (ix2 b k) := by
  have hi := index0 t
  unfold iblk
  rw [View.read_apply]
  show V m c main_v0 _ = V m c main_v0 _
  congr 1
  funext a
  apply Fin.ext
  match a with
  | ⟨0, _⟩ => show win0_0.index t 0 * 256 + 1 * b.val = b.val; rw [hi.1]; omega
  | ⟨1, _⟩ => show win0_0.index t 1 * 4096 + 1 * k.val = k.val; rw [hi.2]; omega

/-- A weight window shows rows `256·t … 256·t + 255`. -/
theorem block1_at (c : Dev nD) (t : Fin cfg0.N) (n : Fin 256) (k : Fin 4096) :
    (iblk m c 1 t : Vec Ideal S256x4096 .bf16) (ix2 n k)
      = (V m c main_v3 : Vec Ideal S6656x4096 .bf16) (ix2 ⟨256 * t.val + n.val, by have := point_lt t; omega⟩ k) := by
  have hi := index1 t
  unfold iblk
  rw [View.read_apply]
  show V m c main_v3 _ = V m c main_v3 _
  congr 1
  funext a
  apply Fin.ext
  match a with
  | ⟨0, _⟩ => show win0_1.index t 0 * 256 + 1 * n.val = 256 * t.val + n.val; rw [hi.1]; omega
  | ⟨1, _⟩ => show win0_1.index t 1 * 4096 + 1 * k.val = k.val; rw [hi.2]; omega

theorem block2_at (c : Dev nD) (t : Fin cfg0.N) (n : Fin 256) (k : Fin 4096) :
    (iblk m c 2 t : Vec Ideal S256x4096 .bf16) (ix2 n k)
      = (V m c main_v6 : Vec Ideal S6656x4096 .bf16) (ix2 ⟨256 * t.val + n.val, by have := point_lt t; omega⟩ k) := by
  have hi := index2 t
  unfold iblk
  rw [View.read_apply]
  show V m c main_v6 _ = V m c main_v6 _
  congr 1
  funext a
  apply Fin.ext
  match a with
  | ⟨0, _⟩ => show win0_2.index t 0 * 256 + 1 * n.val = 256 * t.val + n.val; rw [hi.1]; omega
  | ⟨1, _⟩ => show win0_2.index t 1 * 4096 + 1 * k.val = k.val; rw [hi.2]; omega

theorem block3_at (c : Dev nD) (t : Fin cfg0.N) (n : Fin 256) (k : Fin 4096) :
    (iblk m c 3 t : Vec Ideal S256x4096 .bf16) (ix2 n k)
      = (V m c main_v9 : Vec Ideal S6656x4096 .bf16) (ix2 ⟨256 * t.val + n.val, by have := point_lt t; omega⟩ k) := by
  have hi := index3 t
  unfold iblk
  rw [View.read_apply]
  show V m c main_v9 _ = V m c main_v9 _
  congr 1
  funext a
  apply Fin.ext
  match a with
  | ⟨0, _⟩ => show win0_3.index t 0 * 256 + 1 * n.val = 256 * t.val + n.val; rw [hi.1]; omega
  | ⟨1, _⟩ => show win0_3.index t 1 * 4096 + 1 * k.val = k.val; rw [hi.2]; omega

/-- The offsets' window shows entries `256·t … 256·t + 255` of the one row. -/
theorem block4_at (c : Dev nD) (t : Fin cfg0.N) (n : Fin 256) :
    (iblk m c 4 t : Vec Ideal S1x256 .f32) (ix2 (0 : Fin 1) n)
      = (V m c main_v11 : Vec Ideal S1x6656 .f32) (ix2 (0 : Fin 1) ⟨256 * t.val + n.val, by have := point_lt t; omega⟩) := by
  have hi := index4 t
  unfold iblk
  rw [View.read_apply]
  show V m c main_v11 _ = V m c main_v11 _
  congr 1
  funext a
  apply Fin.ext
  match a with
  | ⟨0, _⟩ => show win0_4.index t 0 * 1 + 1 * 0 = 0; rw [hi.1]
  | ⟨1, _⟩ => show win0_4.index t 1 * 256 + 1 * n.val = 256 * t.val + n.val; rw [hi.2]; omega

/-- The final matrix's window shows rows `256·t … 256·t + 255`. -/
theorem block5_at (c : Dev nD) (t : Fin cfg0.N) (n : Fin 256) (o : Fin 10) :
    (iblk m c 5 t : Vec Ideal S256x10 .f32) (ix2 n o)
      = (V m c main_v13 : Vec Ideal S6656x10 .f32) (ix2 ⟨256 * t.val + n.val, by have := point_lt t; omega⟩ o) := by
  have hi := index5 t
  unfold iblk
  rw [View.read_apply]
  show V m c main_v13 _ = V m c main_v13 _
  congr 1
  funext a
  apply Fin.ext
  match a with
  | ⟨0, _⟩ => show win0_5.index t 0 * 256 + 1 * n.val = 256 * t.val + n.val; rw [hi.1]; omega
  | ⟨1, _⟩ => show win0_5.index t 1 * 10 + 1 * o.val = o.val; rw [hi.2]; omega

/-! ## Block entries by the argument arrays -/

theorem batch_block (c : Dev nD) (t : Fin cfg0.N) (b : Fin 256) (k : Fin 4096) :
    (iblk m c 0 t : Vec Ideal S256x4096 .bf16) (ix2 b k) = A0 m c (ix2 b k) := by
  rw [block0_at, entry_batch]
  rfl

theorem w1_block (c : Dev nD) (t : Fin cfg0.N) (n : Fin 256) (k : Fin 4096) (h : 256 * t.val + n.val < 6250) :
    (iblk m c 1 t : Vec Ideal S256x4096 .bf16) (ix2 n k) = A7 m c (ix2 ⟨_, h⟩ k) * A1 m c (ix2 ⟨_, h⟩ k) := by
  rw [block1_at, entry_w1]
  exact weight_entry (A7 m c) (A1 m c) _ k h

theorem w2_block (c : Dev nD) (t : Fin cfg0.N) (n : Fin 256) (k : Fin 4096) (h : 256 * t.val + n.val < 6250) :
    (iblk m c 2 t : Vec Ideal S256x4096 .bf16) (ix2 n k) = A7 m c (ix2 ⟨_, h⟩ k) * A2 m c (ix2 ⟨_, h⟩ k) := by
  rw [block2_at, entry_w2]
  exact weight_entry (A7 m c) (A2 m c) _ k h

theorem w3_block (c : Dev nD) (t : Fin cfg0.N) (n : Fin 256) (k : Fin 4096) (h : 256 * t.val + n.val < 6250) :
    (iblk m c 3 t : Vec Ideal S256x4096 .bf16) (ix2 n k) = A7 m c (ix2 ⟨_, h⟩ k) * A3 m c (ix2 ⟨_, h⟩ k) := by
  rw [block3_at, entry_w3]
  exact weight_entry (A7 m c) (A3 m c) _ k h

theorem t0_block (c : Dev nD) (t : Fin cfg0.N) (n : Fin 256) (h : 256 * t.val + n.val < 6250) :
    (iblk m c 4 t : Vec Ideal S1x256 .f32) (ix2 (0 : Fin 1) n) = A4 m c (ix1 ⟨_, h⟩) := by
  rw [block4_at, entry_t0]
  exact t0_entry (A4 m c) _ h

theorem cw_block_in (c : Dev nD) (t : Fin cfg0.N) (n : Fin 256) (o : Fin 10) (h : 256 * t.val + n.val < 6250) :
    (iblk m c 5 t : Vec Ideal S256x10 .f32) (ix2 n o) = A5 m c (ix2 o ⟨_, h⟩) := by
  rw [block5_at, entry_cw]
  exact cw_entry_in (A5 m c) _ o h

theorem cw_block_out (c : Dev nD) (t : Fin cfg0.N) (n : Fin 256) (o : Fin 10) (h : ¬256 * t.val + n.val < 6250) :
    (iblk m c 5 t : Vec Ideal S256x10 .f32) (ix2 n o) = (0 : EReal) := by
  rw [block5_at, entry_cw]
  exact cw_entry_out (A5 m c) _ o h

end Cert.KernelIdeal.Inputs
-- ==== Proof.Accum.lean ====
/-
  What the output block holds after each grid point, at the ideal instance: the running sum of tiles.

  Points are numbered `0 … 25`; points `0` and `13` reset. After point `n` the entry `(0, b, o)` of the output's staging
  block is the sum of the tiles from the last reset up to `n` — by induction on the point: a resetting point leaves
  `0 + tile n`, any other point what the point before left plus `tile n`; and `tile n` is the block contraction the
  body computes, because the blocks at point `n` hold the entries of tile `n` (the final matrix's block being `0` on
  the appended rows).
-/
import proofs.«175752_j30288109371710_2_alg».proof.Proof.CaseValues
import proofs.«175752_j30288109371710_2_alg».proof.Proof.KernelPay
import proofs.«175752_j30288109371710_2_alg».proof.Proof.Inputs

noncomputable section

namespace Cert.KernelIdeal.Accum

open Cert.KernelIdeal Cert.KernelIdeal.Gen Idealize.ShloMosaic Idealize.ShloMosaic.TcCoe Idealize.SL.Sem Idealize.ShloMosaic.ValueIdx
open Cert.Cheby Cert.KernelIdeal.Inputs Cert.KernelIdeal.Pay Cert.KernelIdeal.Cases

variable (m : (ℓ : Loc nD τ sig) → Buf (Elt Ideal) ℓ)

/-! ## The specification's data, read off core `c`'s argument arrays by coordinates -/

abbrev zf (c : Dev nD) : Fin 256 → Fin 4096 → EReal := fun b k => A0 m c (ix2 b k)
abbrev maskf (c : Dev nD) : Fin 6250 → Fin 4096 → EReal := fun N k => A7 m c (ix2 N k)
abbrev t1f (c : Dev nD) : Fin 6250 → Fin 4096 → EReal := fun N k => A1 m c (ix2 N k)
abbrev t2f (c : Dev nD) : Fin 6250 → Fin 4096 → EReal := fun N k => A2 m c (ix2 N k)
abbrev t3f (c : Dev nD) : Fin 6250 → Fin 4096 → EReal := fun N k => A3 m c (ix2 N k)
abbrev t0f (c : Dev nD) : Fin 6250 → EReal := fun N => A4 m c (ix1 N)
abbrev cwf (c : Dev nD) : Fin 10 → Fin 6250 → EReal := fun o N => A5 m c (ix2 o N)
abbrev cbf (c : Dev nD) : Fin 10 → EReal := fun o => A6 m c (ix1 o)

/-- Tile `t`'s sum at `(b, o)`, of core `c`'s arguments. -/
abbrev tileAt (c : Dev nD) (b : Fin 256) (o : Fin 10) (t : ℕ) : EReal :=
  tile (zf m c) (maskf m c) (t1f m c) (t2f m c) (t3f m c) (t0f m c) (cwf m c) b o t

/-- The running sum after point `n` at `(b, o)`. -/
abbrev accAt (c : Dev nD) (b : Fin 256) (o : Fin 10) (n : ℕ) : EReal :=
  acc (zf m c) (maskf m c) (t1f m c) (t2f m c) (t3f m c) (t0f m c) (cwf m c) b o n

/-! ## Point `t`'s input blocks, at their literal shapes -/

def zblk (c : Dev nD) (t : Fin cfg0.N) : Vec Ideal S256x4096 .bf16 := iblk m c 0 t
def w1blk (c : Dev nD) (t : Fin cfg0.N) : Vec Ideal S256x4096 .bf16 := iblk m c 1 t
def w2blk (c : Dev nD) (t : Fin cfg0.N) : Vec Ideal S256x4096 .bf16 := iblk m c 2 t
def w3blk (c : Dev nD) (t : Fin cfg0.N) : Vec Ideal S256x4096 .bf16 := iblk m c 3 t
def t0blk (c : Dev nD) (t : Fin cfg0.N) : Vec Ideal S1x256 .f32 := iblk m c 4 t
def cwblk (c : Dev nD) (t : Fin cfg0.N) : Vec Ideal S256x10 .f32 := iblk m c 5 t

/-- The block contraction at point `t` is tile `t`'s sum. -/
theorem tile_at (c : Dev nD) (t : Fin cfg0.N) (b : Fin 256) (o : Fin 10) :
    ∑ n : Fin 256, cheb (∑ k : Fin 4096, zblk m c t (ix2 b k) * w1blk m c t (ix2 n k))
        (∑ k : Fin 4096, zblk m c t (ix2 b k) * w2blk m c t (ix2 n k))
        (∑ k : Fin 4096, zblk m c t (ix2 b k) * w3blk m c t (ix2 n k))
        (t0blk m c t (ix2 (0 : Fin 1) n)) * cwblk m c t (ix2 n o)
      = tileAt m c b o t.val :=
  tile_of_blocks (zf m c) (maskf m c) (t1f m c) (t2f m c) (t3f m c) (t0f m c) (cwf m c) t.val b o
    (fun k => zblk m c t (ix2 b k))
    (fun n k => w1blk m c t (ix2 n k))
    (fun n k => w2blk m c t (ix2 n k))
    (fun n k => w3blk m c t (ix2 n k))
    (fun n => t0blk m c t (ix2 (0 : Fin 1) n))
    (fun n => cwblk m c t (ix2 n o))
    (fun k => batch_block m c t b k)
    (fun n h => ⟨fun k => w1_block m c t n k h, fun k => w2_block m c t n k h, fun k => w3_block m c t n k h,
      t0_block m c t n h, cw_block_in m c t n o h⟩)
    (fun n h => cw_block_out m c t n o h)

/-- The stored block at point `t`, at `(0, b, o)`: the carried block's entry plus tile `t`'s sum. -/
theorem stored_at (c : Dev nD) (t : Fin cfg0.N) (b : Fin 256) (o : Fin 10) (xo : Vec Ideal S1x256x10 .f32) :
    k0_pay1 (k0_pay3 (zblk m c t) (w1blk m c t) (w2blk m c t) (w3blk m c t) (t0blk m c t) (cwblk m c t) xo) (ix3 (0 : Fin 1) b o)
      = xo (ix3 (0 : Fin 1) b o) + tileAt m c b o t.val := by
  refine (pay1_apply _ (0 : Fin 1) b o).trans ?_
  refine (pay3_apply (zblk m c t) (w1blk m c t) (w2blk m c t) (w3blk m c t) (t0blk m c t) (cwblk m c t) xo b o).trans ?_
  exact congrArg (xo (ix3 (0 : Fin 1) b o) + ·) (tile_at m c t b o)

/-- After point `n` the output's staging block holds the running sum. -/
theorem outsAt_eq (c : Dev nD) (b : Fin 256) (o : Fin 10) :
    ∀ (n : ℕ) (h : n < cfg0.N), outsAt0 m c n h (ix3 (0 : Fin 1) b o) = accAt m c b o n
  | 0, h => by
    refine (congrFun (outsAt_reset m c ⟨0, h⟩ rfl) (ix3 (0 : Fin 1) b o)).trans ?_
    refine (stored_at m c ⟨0, h⟩ b o _).trans ?_
    rw [pay2_apply]
    exact (acc_reset _ _ _ _ _ _ _ b o 0 rfl).symm
  | n + 1, h => by
    by_cases h0 : (n + 1) % 13 = 0
    · refine (congrFun (outsAt_reset m c ⟨n + 1, h⟩ h0) (ix3 (0 : Fin 1) b o)).trans ?_
      refine (stored_at m c ⟨n + 1, h⟩ b o _).trans ?_
      rw [pay2_apply]
      exact (acc_reset _ _ _ _ _ _ _ b o (n + 1) h0).symm
    · refine (congrFun (outsAt_carry m c ⟨n + 1, h⟩ h0) (ix3 (0 : Fin 1) b o)).trans ?_
      refine (stored_at m c ⟨n + 1, h⟩ b o _).trans ?_
      show outsAt0 m c n _ (ix3 (0 : Fin 1) b o) + tileAt m c b o (n + 1) = accAt m c b o (n + 1)
      rw [outsAt_eq c b o n]
      exact (acc_step _ _ _ _ _ _ _ b o n h0).symm

end Cert.KernelIdeal.Accum
-- ==== Proof.Final.lean ====
/-
  The kernel's result, at the ideal instance.

  The region's result array has one [256, 10] block per core. Core half `h`'s block is written back once, after its
  last point (`13·h + 12`), with the running sum there: the sum of tiles `13·h … 13·h + 12`. The two write-backs cover
  the array. After the region the host adds the two halves and the bias, so the result at `(b, o)` is
  (tiles 0 … 12) + (tiles 13 … 25) + C_b(o), which is the specification's value.
-/
import proofs.«175752_j30288109371710_2_alg».proof.Proof.Accum
import Idealize.ShloMosaic.Lib.StableHlo.Run

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.StableHlo
open Cert.Cheby Cert.KernelIdeal.Inputs Cert.KernelIdeal.Accum
open Idealize.ShloMosaic.Pipeline (Dat)

variable (m : (ℓ : Loc nD τ sig) → Buf (Elt Ideal) ℓ) (ρ : Dev nD → PrngReg)

/-- The region's result array: entry `(h, b, o)` is the sum of tiles `13·h … 13·h + 12` at `(b, o)`. -/
def halves (c : Dev nD) : S2x256x10.Idx → EReal := fun i =>
  tiles (zf m c) (maskf m c) (t1f m c) (t2f m c) (t3f m c) (t0f m c) (cwf m c) (i 1) (i 2) (13 * (i 0).val) 13

/-- Where the output window's block sits: block `(t / 13, 0, 0)` at point `t`. -/
theorem index6 : ∀ t : Fin cfg0.N, win0_6.index t 0 = t.val / 13 ∧ win0_6.index t 1 = 0 ∧ win0_6.index t 2 = 0 :=
  (by decide +kernel : ∀ t : Fin grid0.N, win0_6.index t 0 = t.val / 13 ∧ win0_6.index t 1 = 0 ∧ win0_6.index t 2 = 0)

/-- At a writing-back point the staging block is that core half's block of `halves`, entry by entry. -/
theorem flushed_entry (c : Dev nD) (t : Fin cfg0.N) (h12 : t.val % 13 = 12) (y : S1x256x10.Idx) :
    outsAt0 m c t.val t.isLt y = halves m c (((cfg0.win 6).blk t).view.emb y) := by
  have hi := index6 t
  have hN := point_lt t
  obtain ⟨u, b, o, rfl⟩ : ∃ (u : Fin 1) (b : Fin 256) (o : Fin 10), y = ix3 u b o := ⟨y 0, y 1, y 2, eq_ix3 y⟩
  obtain rfl : u = 0 := Subsingleton.elim _ _
  rw [outsAt_eq m c b o t.val t.isLt]
  have he : ((cfg0.win 6).blk t).view.emb (ix3 (0 : Fin 1) b o) = (ix3 (⟨t.val / 13, by omega⟩ : Fin 2) b o : S2x256x10.Idx) := by
    funext a
    apply Fin.ext
    match a with
    | ⟨0, _⟩ => show win0_6.index t 0 * 1 + 1 * 0 = t.val / 13; rw [hi.1]; omega
    | ⟨1, _⟩ => show win0_6.index t 1 * 256 + 1 * b.val = b.val; rw [hi.2.1]; omega
    | ⟨2, _⟩ => show win0_6.index t 2 * 10 + 1 * o.val = o.val; rw [hi.2.2]; omega
  rw [he]
  show acc (zf m c) (maskf m c) (t1f m c) (t2f m c) (t3f m c) (t0f m c) (cwf m c) b o t.val = tiles (zf m c) (maskf m c) (t1f m c) (t2f m c) (t3f m c) (t0f m c) (cwf m c) b o (13 * (t.val / 13)) 13
  have e : t.val % 13 + 1 = 13 := by omega
  unfold acc
  rw [e]

/-- What a writing-back point writes back is its block of `halves`. -/
theorem flushed_eq (c : Dev nD) (t : Fin cfg0.N) (hf : (cfg0.win 6).flush t = true) :
    (dats m 0 c).flushed 6 t = ((cfg0.win 6).blk t).view.read (Elt Ideal) (halves m c) := by
  have h12 : t.val % 13 = 12 := (flush0_6 t).mp hf
  show (cfg0.win 6).cut (grid0.coords t) ((dats m 0 c).after 6 t) = _
  rw [after0_6]
  funext j
  rw [View.read_apply]
  exact flushed_entry m c t h12 j

/-- An entry of the result array is in point `t`'s block iff each coordinate is in the block's range on its axis. -/
theorem mem_blk (t : Fin cfg0.N) (i : S2x256x10.Idx) :
    i ∈ ((cfg0.win 6).blk t).view.set ↔ ∀ a : Fin 3, win0_6.index t a * S1x256x10.size a ≤ (i a).val ∧ (i a).val < win0_6.index t a * S1x256x10.size a + S1x256x10.size a := by
  show i ∈ ((View.whole main_v14).slice (win0_6.rect t)).set ↔ _
  rw [View.set_slice_whole, Rect.mem_set_unit]
  exact Iff.rfl

/-- Every entry is in the block of its core half's last point, which writes back. -/
theorem cover (i : S2x256x10.Idx) :
    ∃ t : Fin cfg0.N, (cfg0.win 6).flush t = true ∧ i ∈ ((cfg0.win 6).blk t).view.set := by
  have h0 : (i 0).val < 2 := (i 0).isLt
  have h1 : (i 1).val < 256 := (i 1).isLt
  have h2 : (i 2).val < 10 := (i 2).isLt
  have hN : cfg0.N = 26 := N_0
  obtain ⟨t, ht⟩ : ∃ t : Fin cfg0.N, t.val = 13 * (i 0).val + 12 := ⟨⟨13 * (i 0).val + 12, by omega⟩, rfl⟩
  have hi := index6 t
  refine ⟨t, (flush0_6 t).mpr (by omega), ?_⟩
  rw [mem_blk]
  intro a
  match a with
  | ⟨0, _⟩ => show win0_6.index t 0 * 1 ≤ (i 0).val ∧ (i 0).val < win0_6.index t 0 * 1 + 1; rw [hi.1]; omega
  | ⟨1, _⟩ => show win0_6.index t 1 * 256 ≤ (i 1).val ∧ (i 1).val < win0_6.index t 1 * 256 + 256; rw [hi.2.1]; omega
  | ⟨2, _⟩ => show win0_6.index t 2 * 10 ≤ (i 2).val ∧ (i 2).val < win0_6.index t 2 * 10 + 10; rw [hi.2.2]; omega

/-- So the region's result array ends at `halves`. -/
theorem final (c : Dev nD) : (dats m 0 c).arrAt 6 cfg0.N = halves m c :=
  (dats m 0 c).arrAt_eq_of_cover 6 (halves m c) (flushed_eq m c) cover

/-- The result buffer after the host operations that follow the region: the two halves added, plus the bias broadcast. -/
theorem tail_term (c : Dev nD) :
    Pipeline.afterTail₀ cfgs (dats m) 0 (V0 m) [hostOps1] c main_v22
      = addf (addf (shapeCast S256x10 (extractStridedSlice S1x256x10 ![0, 0, 0] (halves m c) slices_S2x256x10_S1x256x10_0_0_0) shapeCasts_S1x256x10_S256x10)
                   (shapeCast S256x10 (extractStridedSlice S1x256x10 ![1, 0, 0] (halves m c) slices_S2x256x10_S1x256x10_1_0_0) shapeCasts_S1x256x10_S256x10))
          (broadcastInDim S256x10 ![0, 1] bcast_S1x10_S256x10_0_1 (broadcastInDim S1x10 ![1] bcast_S10_S1x10_1 (A6 m c))) := by
  have e14 : Pipeline.withArrays spec0 c (V0 m c) (fun w => (dats m 0 c).arrAt w cfg0.N) (Proc.devRef .tc main_v14) = halves m c :=
    (Pipeline.withArrays_arr spec0 launch0.win.arr_inj c _ _ 6).trans (final m c)
  have e6 : Pipeline.withArrays spec0 c (V0 m c) (fun w => (dats m 0 c).arrAt w cfg0.N) (Proc.devRef .tc main_arg6) = A6 m c :=
    (Pipeline.withArrays_of_ne spec0 c (V0 m c) _ main_arg6 (by decide)).trans (V_main_arg6 m c)
  unfold Pipeline.afterTail₀
  show StableHlo.after hostOps1 _ (Proc.devRef .tc main_v22) = _
  after_results
  rw [e14, e6]
  rfl

/-- The result buffer is the specification's function of core `c`'s arguments. -/
theorem tail_result (c : Dev nD) :
    Pipeline.afterTail₀ cfgs (dats m) 0 (V0 m) [hostOps1] c main_v22
      = Cert.Cheby.result (A0 m c) (A1 m c) (A2 m c) (A3 m c) (A4 m c) (A5 m c) (A6 m c) (A7 m c) := by
  rw [tail_term]
  funext i
  obtain ⟨b, o, rfl⟩ : ∃ (b : Fin 256) (o : Fin 10), i = ix2 b o := ⟨i 0, i 1, eq_ix2 i⟩
  rw [addf_apply, addf_apply, shapeCast_1ab_ab_apply, shapeCast_1ab_ab_apply,
    extractStridedSlice_apply ![0, 0, 0] (halves m c) slices_S2x256x10_S1x256x10_0_0_0 (ix3 (0 : Fin 1) b o) (ix3 (0 : Fin 2) b o)
      (fun a => match a with
        | ⟨0, _⟩ => rfl
        | ⟨1, _⟩ => by show b.val = 0 + b.val; omega
        | ⟨2, _⟩ => by show o.val = 0 + o.val; omega),
    extractStridedSlice_apply ![1, 0, 0] (halves m c) slices_S2x256x10_S1x256x10_1_0_0 (ix3 (0 : Fin 1) b o) (ix3 (1 : Fin 2) b o)
      (fun a => match a with
        | ⟨0, _⟩ => rfl
        | ⟨1, _⟩ => by show b.val = 0 + b.val; omega
        | ⟨2, _⟩ => by show o.val = 0 + o.val; omega),
    broadcastInDim_apply _ bcast_S1x10_S256x10_0_1 _ (ix2 b o) (ix2 (0 : Fin 1) o)
      (fun a => match a with
        | ⟨0, _⟩ => by show 0 = if (1 : Nat) = 1 then 0 else b.val; rw [if_pos rfl]
        | ⟨1, _⟩ => by show o.val = if (10 : Nat) = 1 then 0 else o.val; rw [if_neg (by decide)]),
    broadcastInDim_apply _ bcast_S10_S1x10_1 (A6 m c) (ix2 (0 : Fin 1) o) (ix1 o)
      (fun a => match a with
        | ⟨0, _⟩ => by show o.val = if (10 : Nat) = 1 then 0 else o.val; rw [if_neg (by decide)])]
  exact halves_add_bias (zf m c) (maskf m c) (t1f m c) (t2f m c) (t3f m c) (t0f m c) (cwf m c) (cbf m c) b o

/-- THE KERNEL'S RUN, READ: every weakly fair execution terminates with the result buffer at the specification's
    function of the arguments, and the arguments unchanged. -/
theorem run : θ_run defs (onTc (τ := τ) (main (F := Ideal))) ⟨m, fun _ => 0, ρ⟩ fun r => ∀ c : Dev nD,
      r.2.mem ((c : Thread nD τ).loc main_v22)
        = Cert.Cheby.result (A0 m c) (A1 m c) (A2 m c) (A3 m c) (A4 m c) (A5 m c) (A6 m c) (A7 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨
      ((h c).2 main_v22 (Pipeline.mem_restRefs_of main_v22 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Final
-- ==== Proof.RefValue.lean ====
/-
  The reference's result term is the specification's function of the arguments.

  The reference multiplies each weight tensor by the mask, transposes it, contracts the batch against it over the
  4096 input features, forms the recurrence column by column over all 6250 output features, contracts that against
  the transposed final matrix over the 6250 features and adds the bias. Read at `(b, o)`, operation by operation,
  this is `(∑_N x₃(b, N) · C_w(o, N)) + C_b(o)` with `x₃` the specification's column: the same products in the same
  order, so nothing beyond re-indexing is needed.
-/
import proofs.«175752_j30288109371710_2_alg».proof.Proof.Gen.ReferenceIdeal.Read
import proofs.«175752_j30288109371710_2_alg».proof.Proof.Spec

noncomputable section

namespace Cert.ReferenceIdeal.RefValue

open Cert.ReferenceIdeal Cert.ReferenceIdeal.Read Idealize.ShloMosaic Idealize.ShloMosaic.ValueIdx

variable (x0 : (⟨S256x4096, .f32⟩ : BufTy).Contents (Elt Ideal)) (x1 x2 x3 x7 : (⟨S6250x4096, .f32⟩ : BufTy).Contents (Elt Ideal))
  (x4 : (⟨S6250, .f32⟩ : BufTy).Contents (Elt Ideal)) (x5 : (⟨S10x6250, .f32⟩ : BufTy).Contents (Elt Ideal))
  (x6 : (⟨S10, .f32⟩ : BufTy).Contents (Elt Ideal))

/-- The first contraction at `(b, N)`: row `b` of the batch against row `N` of mask · T₁. -/
theorem dot1 (b : Fin 256) (N : Fin 6250) :
    val_main_v2 (F := Ideal) x0 x1 x7 (ix2 b N) = ∑ k : Fin 4096, x0 (ix2 b k) * (x7 (ix2 N k) * x1 (ix2 N k)) := by
  rw [val_main_v2_apply]
  refine Finset.sum_congr rfl fun k _ => ?_
  rw [val_main_v1_apply, val_main_v0_apply]
  have e1 : lidx_main_v2 (ix2 b N) k = ix2 b k := funext fun a => Fin.ext (by match a with | ⟨0, _⟩ => rfl | ⟨1, _⟩ => rfl)
  have e2 : idx_main_v1 (ridx_main_v2 (ix2 b N) k) = ix2 N k := funext fun a => Fin.ext (by match a with | ⟨0, _⟩ => rfl | ⟨1, _⟩ => rfl)
  rw [e1, e2]
  rfl

/-- The second contraction at `(b, N)`. -/
theorem dot2 (b : Fin 256) (N : Fin 6250) :
    val_main_v5 (F := Ideal) x0 x2 x7 (ix2 b N) = ∑ k : Fin 4096, x0 (ix2 b k) * (x7 (ix2 N k) * x2 (ix2 N k)) := by
  rw [val_main_v5_apply]
  refine Finset.sum_congr rfl fun k _ => ?_
  rw [val_main_v4_apply, val_main_v3_apply]
  have e1 : lidx_main_v5 (ix2 b N) k = ix2 b k := funext fun a => Fin.ext (by match a with | ⟨0, _⟩ => rfl | ⟨1, _⟩ => rfl)
  have e2 : idx_main_v4 (ridx_main_v5 (ix2 b N) k) = ix2 N k := funext fun a => Fin.ext (by match a with | ⟨0, _⟩ => rfl | ⟨1, _⟩ => rfl)
  rw [e1, e2]
  rfl

/-- The third contraction at `(b, N)`. -/
theorem dot3 (b : Fin 256) (N : Fin 6250) :
    val_main_v14 (F := Ideal) x0 x3 x7 (ix2 b N) = ∑ k : Fin 4096, x0 (ix2 b k) * (x7 (ix2 N k) * x3 (ix2 N k)) := by
  rw [val_main_v14_apply]
  refine Finset.sum_congr rfl fun k _ => ?_
  rw [val_main_v13_apply, val_main_v12_apply]
  have e1 : lidx_main_v14 (ix2 b N) k = ix2 b k := funext fun a => Fin.ext (by match a with | ⟨0, _⟩ => rfl | ⟨1, _⟩ => rfl)
  have e2 : idx_main_v13 (ridx_main_v14 (ix2 b N) k) = ix2 N k := funext fun a => Fin.ext (by match a with | ⟨0, _⟩ => rfl | ⟨1, _⟩ => rfl)
  rw [e1, e2]
  rfl

/-- The recurrence's third term at `(b, N)` is the specification's column of the three contractions and the offset. -/
theorem column (b : Fin 256) (N : Fin 6250) :
    val_main_v18 (F := Ideal) x0 x1 x2 x3 x4 x7 (ix2 b N)
      = Cert.Cheby.cheb (∑ k : Fin 4096, x0 (ix2 b k) * (x7 (ix2 N k) * x1 (ix2 N k)))
          (∑ k : Fin 4096, x0 (ix2 b k) * (x7 (ix2 N k) * x2 (ix2 N k)))
          (∑ k : Fin 4096, x0 (ix2 b k) * (x7 (ix2 N k) * x3 (ix2 N k))) (x4 (ix1 N)) := by
  rw [val_main_v18_apply, val_main_v17_apply, val_main_v16_apply, val_main_v15_apply, val_main_cst_0_apply,
    val_main_v11_apply, val_main_v8_apply, val_main_v7_apply, val_main_v6_apply, val_main_cst_apply,
    val_main_v10_apply, val_main_v9_apply, dot1, dot2, dot3]
  have e : idx_main_v9 (idx_main_v10 (ix2 b N)) = ix1 N := funext fun a => Fin.ext (by match a with | ⟨0, _⟩ => rfl)
  rw [e]
  rfl

/-- The reference's result is the specification's function of the eight arguments. -/
theorem result_eq :
    val_main_v23 (F := Ideal) x0 x1 x2 x3 x4 x5 x6 x7 = Cert.Cheby.result x0 x1 x2 x3 x4 x5 x6 x7 := by
  funext i
  obtain ⟨b, o, rfl⟩ : ∃ (b : Fin 256) (o : Fin 10), i = ix2 b o := ⟨i 0, i 1, eq_ix2 i⟩
  rw [val_main_v23_apply, val_main_v20_apply, val_main_v22_apply, val_main_v21_apply]
  have e6 : idx_main_v21 (idx_main_v22 (ix2 b o)) = ix1 o := funext fun a => Fin.ext (by match a with | ⟨0, _⟩ => rfl)
  rw [e6]
  show (∑ k : Fin 6250, val_main_v18 (F := Ideal) x0 x1 x2 x3 x4 x7 (lidx_main_v20 (ix2 b o) k)
        * val_main_v19 (F := Ideal) x5 (ridx_main_v20 (ix2 b o) k)) + x6 (ix1 o)
      = (∑ N : Fin 6250, Cert.Cheby.x3 (fun b k => x0 (ix2 b k)) (fun N k => x7 (ix2 N k)) (fun N k => x1 (ix2 N k))
          (fun N k => x2 (ix2 N k)) (fun N k => x3 (ix2 N k)) (fun N => x4 (ix1 N)) b N * x5 (ix2 o N)) + x6 (ix1 o)
  congr 1
  refine Finset.sum_congr rfl fun N _ => ?_
  have el : lidx_main_v20 (ix2 b o) N = ix2 b N := funext fun a => Fin.ext (by match a with | ⟨0, _⟩ => rfl | ⟨1, _⟩ => rfl)
  have er : idx_main_v19 (ridx_main_v20 (ix2 b o) N) = ix2 o N := funext fun a => Fin.ext (by match a with | ⟨0, _⟩ => rfl | ⟨1, _⟩ => rfl)
  rw [val_main_v19_apply, el, er, column]
  rfl

end Cert.ReferenceIdeal.RefValue
-- ==== Proof.lean ====
/-
  The proof of `Cert.Claim` for a Chebyshev-style three-term layer followed by a linear read-out.

  The function. With `z` the batch (256 × 4096), `mask`, `T₁ T₂ T₃` (6250 × 4096), `T0` (6250), `C_w` (10 × 6250),
  `C_b` (10): for a batch row `b` and an output feature `N`,
      aᵢ(b, N) = ∑ₖ z(b, k) · (mask(N, k) · Tᵢ(N, k)),   x₃(b, N) = (2·a₃)·((2·a₂)·a₁ − T0(N)) − a₁,
  and the result at `(b, o)` is `(∑_{N < 6250} x₃(b, N) · C_w(o, N)) + C_b(o)` (Proof/Spec.lean).

  The reference computes exactly this expression (Proof/RefValue.lean, over the generated read-at-an-index lemmas).

  The kernel pads the feature axis with zeros to `6656 = 26 · 256`, walks 26 tiles of 256 features on a 2 × 13 grid —
  the first grid coordinate picks one of two accumulators, the second runs over that accumulator's 13 tiles, and the
  accumulator is reset when the second coordinate is zero — and adds the two accumulators and the bias on the host.
  Per tile the body's arithmetic is the same products in the same order (Proof/KernelPay.lean); the blocks it is given
  are the tile's entries, with the final matrix's rows past 6250 equal to zero (Proof/Inputs.lean); each case of the
  body leaves "carried block + tile" (Proof/CaseValues.lean), so by induction on the point the accumulator holds the
  running sum of tiles (Proof/Accum.lean); the two write-backs cover the region's result array and the host tail adds
  them (Proof/Final.lean).

  The law that joins the two sides: a finite sum of extended reals may be cut into consecutive tiles and the tiles
  added in any grouping (addition is commutative and associative), and a summand whose `C_w` factor is zero vanishes
  (`x · 0 = 0` for every extended real `x`). Neither step needs an entry to be finite, so the precondition is not
  opened. The idealization rewrote nothing, so `preserves` is `True`.
-/
import proofs.«175752_j30288109371710_2_alg».proof.Defs
import proofs.«175752_j30288109371710_2_alg».proof.Proof.Gen.Kernel
import proofs.«175752_j30288109371710_2_alg».proof.Proof.Gen.Kernel.Skeleton
import proofs.«175752_j30288109371710_2_alg».proof.Proof.Gen.Kernel.Launch
import proofs.«175752_j30288109371710_2_alg».proof.Proof.Gen.Kernel.Points
import proofs.«175752_j30288109371710_2_alg».proof.Proof.Gen.Kernel.Frame
import proofs.«175752_j30288109371710_2_alg».proof.Proof.Gen.KernelIdeal
import proofs.«175752_j30288109371710_2_alg».proof.Proof.Gen.KernelIdeal.Skeleton
import proofs.«175752_j30288109371710_2_alg».proof.Proof.Gen.KernelIdeal.Launch
import proofs.«175752_j30288109371710_2_alg».proof.Proof.Gen.KernelIdeal.Points
import proofs.«175752_j30288109371710_2_alg».proof.Proof.Gen.KernelIdeal.Frame
import proofs.«175752_j30288109371710_2_alg».proof.Proof.Gen.ReferenceIdeal
import proofs.«175752_j30288109371710_2_alg».proof.Proof.Gen.ReferenceIdeal.Run
import proofs.«175752_j30288109371710_2_alg».proof.Proof.Gen.ReferenceIdeal.Read
import proofs.«175752_j30288109371710_2_alg».proof.Proof.Gen.Pre_finite_inputs
import proofs.«175752_j30288109371710_2_alg».proof.Proof.Final
import proofs.«175752_j30288109371710_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the kernel's result buffer ends at the specification's function of its arguments, and so
    does the reference's, of arguments that agree. -/
theorem algebraic : Cert.algebraic_KernelIdeal_ReferenceIdeal := by
  intro m ρ m' ρ' _ hagree
  refine ⟨fun c => Cert.Cheby.result (Cert.KernelIdeal.Inputs.A0 m c) (Cert.KernelIdeal.Inputs.A1 m c)
      (Cert.KernelIdeal.Inputs.A2 m c) (Cert.KernelIdeal.Inputs.A3 m c) (Cert.KernelIdeal.Inputs.A4 m c)
      (Cert.KernelIdeal.Inputs.A5 m c) (Cert.KernelIdeal.Inputs.A6 m c) (Cert.KernelIdeal.Inputs.A7 m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v23_eq, Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
